-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S1024x1024 .f32) (main_arg6 : FVec F S1024 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S2048x4096 .f32) (main_arg4 : FVec F S4096 .f32) (main_arg5 : FVec F S1024x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S16384x1024 : Shape := ⟨2, ![16384, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S1x4096 : Shape := ⟨2, ![1, 4096]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x4096, .f32⟩
  | .hbm, ⟨4, _⟩ => ⟨S4096, .f32⟩
  | .hbm, ⟨5, _⟩ => ⟨S1024x1024, .f32⟩
  | .hbm, ⟨6, _⟩ => ⟨S1024, .f32⟩
  | .hbm, ⟨7, _⟩ => ⟨S2048x4096, .bf16⟩
  | .hbm, ⟨8, _⟩ => ⟨S1024x1024, .bf16⟩
  | .hbm, ⟨9, _⟩ => ⟨S1x4096, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S2048x4096_S1024x1024_0_0 : ∀ a, (![0, 0] : Fin 2 → Nat) a + S1024x1024.size a ≤ S2048x4096.size a
  h_S1024x1024 : 0 < S1024x1024.numel
  shapeCasts_S1024x1024_S1024x1024 : S1024x1024.ShapeCasts S1024x1024
  inb_S2048x4096_S1024x1024_1024_0 : ∀ a, (![1024, 0] : Fin 2 → Nat) a + S1024x1024.size a ≤ S2048x4096.size a
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S2048x4096_S1024x1024_0_1024 : ∀ a, (![0, 1024] : Fin 2 → Nat) a + S1024x1024.size a ≤ S2048x4096.size a
  inb_S2048x4096_S1024x1024_1024_1024 : ∀ a, (![1024, 1024] : Fin 2 → Nat) a + S1024x1024.size a ≤ S2048x4096.size a
  inb_S1x4096_S1x1024_0_1024 : ∀ a, (![0, 1024] : Fin 2 → Nat) a + S1x1024.size a ≤ S1x4096.size a
  inb_S2048x4096_S1024x1024_0_2048 : ∀ a, (![0, 2048] : Fin 2 → Nat) a + S1024x1024.size a ≤ S2048x4096.size a
  inb_S2048x4096_S1024x1024_1024_2048 : ∀ a, (![1024, 2048] : Fin 2 → Nat) a + S1024x1024.size a ≤ S2048x4096.size a
  inb_S1x4096_S1x1024_0_2048 : ∀ a, (![0, 2048] : Fin 2 → Nat) a + S1x1024.size a ≤ S1x4096.size a
  inb_S2048x4096_S1024x1024_0_3072 : ∀ a, (![0, 3072] : Fin 2 → Nat) a + S1024x1024.size a ≤ S2048x4096.size a
  inb_S2048x4096_S1024x1024_1024_3072 : ∀ a, (![1024, 3072] : Fin 2 → Nat) a + S1024x1024.size a ≤ S2048x4096.size a
  inb_S1x4096_S1x1024_0_3072 : ∀ a, (![0, 3072] : Fin 2 → Nat) a + S1x1024.size a ≤ S1x4096.size a
  inb_S1024x1024_S1024x1024_0_0 : ∀ a, (![0, 0] : Fin 2 → Nat) a + S1024x1024.size a ≤ S1024x1024.size a
  inb_S1x1024_S1x1024_0_0 : ∀ a, (![0, 0] : Fin 2 → Nat) a + S1x1024.size a ≤ S1x1024.size a
  reduces_S256x1024_S256 : S256x1024.Reduces [1] S256
  shapeCasts_S256_S256x1 : S256.ShapeCasts S256x1
  broadcasts_S256x1_S256x1024 : S256x1.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S16384x2048 : Shape := ⟨2, ![16384, 2048]⟩
abbrev S16384x4096 : Shape := ⟨2, ![16384, 4096]⟩
abbrev S1x4096 : Shape := ⟨2, ![1, 4096]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x4096, .f32⟩
  | .hbm, ⟨4, _⟩ => ⟨S4096, .f32⟩
  | .hbm, ⟨5, _⟩ => ⟨S1024x1024, .f32⟩
  | .hbm, ⟨6, _⟩ => ⟨S1024, .f32⟩
  | .hbm, ⟨7, _⟩ => ⟨S16384x2048, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_call0_cst_0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_cst_1 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_v37 : Ref sig .tc := ⟨.hbm, 64, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  dot_S16384x2048_S2048x4096_S16384x4096_1_0_0_1_n_n_wf : DotDims.WF S16384x2048 S2048x4096 S16384x4096 [1] [0] [0] [1] [] []
  dot_S16384x1024_S1024x1024_S16384x1024_1_0_0_1_n_n_wf : DotDims.WF S16384x1024 S1024x1024 S16384x1024 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  One step of an LSTM cell followed by a log-softmax read-out, over the extended reals.

  For a batch row with input `x`, hidden state `h` and cell state `c` (1024 entries each), gate weights `Wg`
  (2048 × 4096: rows 0–1023 multiply `x`, rows 1024–2047 multiply `h`; columns in four blocks of 1024, one per gate, in
  the order forget | input | update | output), gate bias `bg`, read-out weights `Wo` (1024 × 1024) and bias `bo`:

      pre_g(j)  = Σ_k x_k · Wg[k, 1024g + j] + Σ_k h_k · Wg[1024 + k, 1024g + j] + bg[1024g + j]
      c'(j)     = σ(pre_0(j)) · c_j + σ(pre_1(j)) · tanh(pre_2(j))
      h'(j)     = σ(pre_3(j)) · tanh(c'(j))
      logit(j)  = Σ_k h'(k) · Wo[k, j] + bo[j]
      out(j)    = (logit(j) − M) − log Σ_k exp(logit(k) − M),      M = max_k logit(k)

  with σ the logistic function 1 / (1 + e^(−t)), every operation the exact one on the extended reals. The one law used
  to set two spellings of `pre` side by side is that a sum over 2048 consecutive terms is the sum of its first 1024 terms
  plus the sum of its last 1024: addition on the extended reals is commutative and associative, so no finiteness is
  needed for it.
-/
import Idealize.ShloMosaic.PureOps.Ideal
import Idealize.ShloMosaic.Lib.ValueIdx

noncomputable section

open scoped BigOperators

namespace Cert.LstmStep

open Idealize.ShloMosaic Idealize.ShloMosaic.ValueIdx

/-! ## One batch row -/

/-- A gate's pre-activation: the row of `x` against the upper half of the gate's weight column, plus the row of `h`
    against the lower half, plus the bias entry. -/
def pre (xr hr wt wb : Fin 1024 → EReal) (b : EReal) : EReal :=
  (∑ k : Fin 1024, xr k * wt k) + (∑ k : Fin 1024, hr k * wb k) + b

/-- The new cell state from the forget, input and update pre-activations and the old cell state. -/
def cellNew (f i u c : EReal) : EReal := Ideal.logistic f * c + Ideal.logistic i * Ideal.tanh u

/-- The new hidden state from the output gate's pre-activation and the new cell state. -/
def hidNew (o cn : EReal) : EReal := Ideal.logistic o * Ideal.tanh cn

/-- The largest entry of a row, as the fold of `max` from `-∞`. -/
def rowMax (l : Fin 1024 → EReal) : EReal := (Finset.univ : Finset (Fin 1024)).fold max ⊥ l

/-- The log-softmax of a row at entry `j`: the entry shifted by the row's maximum, minus the logarithm of the sum of
    the exponentials of the shifted entries. -/
def logSoftmax (l : Fin 1024 → EReal) (j : Fin 1024) : EReal :=
  (l j - rowMax l) - Ideal.log (∑ k : Fin 1024, Ideal.exp (l k - rowMax l))

/-- A sum over 2048 consecutive terms is the sum of the first 1024 plus the sum of the last 1024. -/
theorem sum_halves (f : Fin 2048 → EReal) :
    ∑ k : Fin 2048, f k
      = (∑ k : Fin 1024, f ⟨k.val, by have := k.isLt; omega⟩) + ∑ k : Fin 1024, f ⟨1024 + k.val, by have := k.isLt; omega⟩ :=
  Fin.sum_univ_add (M := EReal) (a := 1024) (b := 1024) f

/-! ## The arrays -/

/-- The activations' shape [16384, 1024], the gate weights' [2048, 4096], the read-out weights' [1024, 1024]. -/
abbrev SAct : Shape := ⟨2, ![16384, 1024]⟩
abbrev SWg : Shape := ⟨2, ![2048, 4096]⟩
abbrev SWo : Shape := ⟨2, ![1024, 1024]⟩

/-- Row `r` of an activation array. -/
def rowOf (X : SAct.Idx → EReal) (r : Fin 16384) : Fin 1024 → EReal := fun k => X (ix2 r k)

/-- The upper half (rows 0–1023, those that multiply `x`) of column `j` of the gate weights. -/
def wTop (Wg : SWg.Idx → EReal) (j : Fin 4096) : Fin 1024 → EReal :=
  fun k => Wg (ix2 (⟨k.val, by have := k.isLt; omega⟩ : Fin 2048) j)

/-- The lower half (rows 1024–2047, those that multiply `h`) of column `j` of the gate weights. -/
def wBot (Wg : SWg.Idx → EReal) (j : Fin 4096) : Fin 1024 → EReal :=
  fun k => Wg (ix2 (⟨1024 + k.val, by have := k.isLt; omega⟩ : Fin 2048) j)

/-- Column `o + j` of the gate weights: hidden unit `j` of the gate whose block of columns starts at `o`. -/
def gcol (o : ℕ) (ho : o + 1024 ≤ 4096) (j : Fin 1024) : Fin 4096 := ⟨o + j.val, by have := j.isLt; omega⟩

/-- The pre-activation, at batch row `r` and hidden unit `j`, of the gate whose columns start at `o`. -/
def preAt (X H : SAct.Idx → EReal) (Wg : SWg.Idx → EReal) (bg : Fin 4096 → EReal) (o : ℕ) (ho : o + 1024 ≤ 4096)
    (r : Fin 16384) (j : Fin 1024) : EReal :=
  pre (rowOf X r) (rowOf H r) (wTop Wg (gcol o ho j)) (wBot Wg (gcol o ho j)) (bg (gcol o ho j))

/-- The row and column of an activation index, as numbers below the literal extents. -/
abbrev rowIx (i : SAct.Idx) : Fin 16384 := ⟨(i 0).val, idx2_lt0 i⟩
abbrev colIx (i : SAct.Idx) : Fin 1024 := ⟨(i 1).val, idx2_lt1 i⟩

/-- The new cell state, index by index: the forget gate times the old cell state plus the input gate times the
    squashed update. -/
def cNewArr (X H C : SAct.Idx → EReal) (Wg : SWg.Idx → EReal) (bg : Fin 4096 → EReal) : SAct.Idx → EReal := fun i =>
  cellNew (preAt X H Wg bg 0 (by norm_num) (rowIx i) (colIx i)) (preAt X H Wg bg 1024 (by norm_num) (rowIx i) (colIx i))
    (preAt X H Wg bg 2048 (by norm_num) (rowIx i) (colIx i)) (C i)

/-- The new hidden state, index by index: the output gate times the squashed new cell state. -/
def hNewArr (X H C : SAct.Idx → EReal) (Wg : SWg.Idx → EReal) (bg : Fin 4096 → EReal) : SAct.Idx → EReal := fun i =>
  hidNew (preAt X H Wg bg 3072 (by norm_num) (rowIx i) (colIx i)) (cNewArr X H C Wg bg i)

/-- The read-out's logit at `(r, j)`: row `r` of a hidden-state array against column `j` of the read-out weights, plus
    the bias entry. -/
def logitAt (Hn : SAct.Idx → EReal) (Wo : SWo.Idx → EReal) (bo : Fin 1024 → EReal) (r : Fin 16384) (j : Fin 1024) : EReal :=
  (∑ k : Fin 1024, Hn (ix2 r k) * Wo (ix2 k j)) + bo j

/-- The read-out, index by index: the log-softmax of the row of logits computed from the new hidden state. -/
def outArr (X H C : SAct.Idx → EReal) (Wg : SWg.Idx → EReal) (bg : Fin 4096 → EReal) (Wo : SWo.Idx → EReal)
    (bo : Fin 1024 → EReal) : SAct.Idx → EReal := fun i =>
  logSoftmax (fun j => logitAt (hNewArr X H C Wg bg) Wo bo (rowIx i) j) (colIx i)

/-! ## Two word patterns -/

/-- The f32 word of `1.0` is the number one. -/
theorem ofBits_one : Ideal.ofBits .f32 0x3F800000#32 = 1 := by
  simp [Ideal.ofBits, Ideal.ieee, -EReal.coe_mul]; norm_num

/-- The f32 word of `-∞` is the bottom of the extended reals. -/
theorem ofBits_neg_inf : Ideal.ofBits .f32 0xFF800000#32 = ⊥ := by
  simp [Ideal.ofBits, Ideal.ieee]

end Cert.LstmStep

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibRectLoad.lean ====
/-
  A load through a rectangle of a matrix.

  A unit-stride rectangle of an `[n0, n1]` array with offsets `(o0, o1)` and extents `[b0, b1]` names the entries
  `(o0 + k, o1 + q)` for `k < b0`, `q < b1`. Loading the array through it gives the `[b0, b1]` array whose entry at
  `(k, q)` is the array's entry at `(o0 + k, o1 + q)`: a slice of a weight matrix read off its buffer.
-/
import Idealize.ShloMosaic.Lib.Pipeline.FrameBody
import Idealize.ShloMosaic.Lib.ValueIdx

namespace Cert.LibRectLoad

open Idealize.ShloMosaic Idealize.ShloMosaic.ValueIdx

/-- A load through a unit-stride rectangle of a rank-two array reads, at `(k, q)`, the array at the rectangle's offsets
    plus `(k, q)`. -/
theorem ld2_apply {F : FTy → Type} {n0 n1 b0 b1 : ℕ} {e : EltTy} (X : Vec F ⟨2, ![n0, n1]⟩ e) (o0 o1 : ℕ)
    (inb : ∀ a, ![o0, o1] a + (⟨2, ![b0, b1]⟩ : Shape).size a ≤ (⟨2, ![n0, n1]⟩ : Shape).size a)
    (k : Fin b0) (q : Fin b1) (h0 : o0 + k.val < n0) (h1 : o1 + q.val < n1) :
    View.ld X (Rect.unit (s := ⟨2, ![n0, n1]⟩) ![o0, o1] (⟨2, ![b0, b1]⟩ : Shape).size inb) (ix2 k q)
      = X (ix2 ⟨o0 + k.val, h0⟩ ⟨o1 + q.val, h1⟩) := by
  show X ((Rect.unit (s := ⟨2, ![n0, n1]⟩) ![o0, o1] (⟨2, ![b0, b1]⟩ : Shape).size inb).idx (ix2 k q)) = _
  refine congrArg X (funext fun a => Fin.ext ?_)
  match a with
  | ⟨0, _⟩ => show o0 + 1 * k.val = o0 + k.val; omega
  | ⟨1, _⟩ => show o1 + 1 * q.val = o1 + q.val; omega

end Cert.LibRectLoad
-- ==== Proof.KernelBody.lean ====
/-
  The body of the fused kernel, read at a block index.

  The body works on one block of 256 batch rows. From the loaded blocks `P0`, `P1`, `P2` of `x`, `h`, `c` (256 × 1024),
  four pairs of 1024 × 1024 slices of the gate weights with their 1 × 1024 bias slices, the read-out weights and the
  read-out bias it computes, with the matrix unit, the four gates' pre-activations; pointwise the new cell state and
  the new hidden state; with the matrix unit again the logits; and with two lane reductions (a maximum and a sum) the
  log-softmax of each row. Every step is read here at an index `(p, q)` of the block, at the exact values: a matrix
  product into a zero accumulator is a sum over the contracted coordinate, a bias row broadcast over the rows reads
  its entry in column `q`, a row maximum is the fold of `max` from `-∞` and a row sum a finite sum over the row's
  entries, and a reduced column broadcast back over the columns reads its entry in row `p`.
-/
import proofs.«128809_j22677427323268_2_alg».proof.Proof.Gen.KernelIdeal.Value
import proofs.«128809_j22677427323268_2_alg».proof.Proof.Spec
import proofs.«128809_j22677427323268_2_alg».proof.Proof.LibPlainMatmul
import proofs.«128809_j22677427323268_2_alg».proof.Proof.LibColumnBroadcast
import proofs.«128809_j22677427323268_2_alg».proof.Proof.LibColumnCast
import proofs.«128809_j22677427323268_2_alg».proof.Proof.LibRectLoad
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.SL.Sem
open Idealize.ShloMosaic.ValueIdx Cert.LstmStep Cert.LibColumnBroadcast Cert.LibColumnCast

/-- One of the body's matrix products, into the zero block: the entry at `(p, q)` is the sum over the contracted
    coordinate. -/
theorem mm_apply (A : FVec Ideal S256x1024 .bf16) (W : FVec Ideal S1024x1024 .bf16) (hc : S1024x1024.ShapeCasts S1024x1024)
    (p : Fin 256) (q : Fin 1024) :
    matmul dot_S256x1024_S1024x1024_S256x1024_1_0_0_1_n_n none A (shapeCast S1024x1024 W hc) (constant S256x1024 .f32 0x00000000#32) (ix2 p q)
      = ∑ k : Fin 1024, A (ix2 p k) * W (ix2 k q) := by
  rw [shapeCast_self]
  exact matmul_plain_zero_apply none A W p q

/-- A gate's pre-activation as the body computes it — two matrix products, added, plus the bias row broadcast over
    the block's rows — at `(p, q)`. -/
theorem gate_apply (A0 A1 : FVec Ideal S256x1024 .bf16) (Wt Wb : FVec Ideal S1024x1024 .bf16) (b : FVec Ideal S1x1024 .f32)
    (hc : S1024x1024.ShapeCasts S1024x1024) (hc' : S1x1024.ShapeCasts S1x1024) (hb : S1x1024.Broadcasts S256x1024)
    (p : Fin 256) (q : Fin 1024) :
    addf (addf (matmul dot_S256x1024_S1024x1024_S256x1024_1_0_0_1_n_n none A0 (shapeCast S1024x1024 Wt hc) (constant S256x1024 .f32 0x00000000#32))
               (matmul dot_S256x1024_S1024x1024_S256x1024_1_0_0_1_n_n none A1 (shapeCast S1024x1024 Wb hc) (constant S256x1024 .f32 0x00000000#32)))
         (broadcastTo S256x1024 (shapeCast S1x1024 b hc') hb) (ix2 p q)
      = pre (fun k => A0 (ix2 p k)) (fun k => A1 (ix2 p k)) (fun k => Wt (ix2 k q)) (fun k => Wb (ix2 k q)) (b (ix2 (0 : Fin 1) q)) := by
  have e3 : broadcastTo S256x1024 (shapeCast S1x1024 b hc') hb (ix2 p q) = b (ix2 (0 : Fin 1) q) := by
    rw [shapeCast_self]; exact broadcastTo_1b_ab_apply b hb p q
  exact congrArg₂ (· + ·) (congrArg₂ (· + ·) (mm_apply A0 Wt hc p q) (mm_apply A1 Wb hc p q)) e3

/-- The new cell state as the body computes it, at `(p, q)`. -/
theorem cnew_pay (P0 P1 P2 : FVec Ideal S256x1024 .f32) (W1t W1b : FVec Ideal S1024x1024 .bf16) (b1 : FVec Ideal S1x1024 .f32)
    (W2t W2b : FVec Ideal S1024x1024 .bf16) (b2 : FVec Ideal S1x1024 .f32) (W3t W3b : FVec Ideal S1024x1024 .bf16) (b3 : FVec Ideal S1x1024 .f32)
    (p : Fin 256) (q : Fin 1024) :
    k0_pay7 (F := Ideal) (k0_pay2 P0) (k0_pay3 P1) (k0_pay4 P0 P1 P2 W1t W1b b1) (k0_pay5 P0 P1 W2t W2b b2) (k0_pay6 W3t) W3b b3 (ix2 p q)
      = cellNew (pre (fun k => P0 (ix2 p k)) (fun k => P1 (ix2 p k)) (fun k => W1t (ix2 k q)) (fun k => W1b (ix2 k q)) (b1 (ix2 (0 : Fin 1) q)))
          (pre (fun k => P0 (ix2 p k)) (fun k => P1 (ix2 p k)) (fun k => W2t (ix2 k q)) (fun k => W2b (ix2 k q)) (b2 (ix2 (0 : Fin 1) q)))
          (pre (fun k => P0 (ix2 p k)) (fun k => P1 (ix2 p k)) (fun k => W3t (ix2 k q)) (fun k => W3b (ix2 k q)) (b3 (ix2 (0 : Fin 1) q)))
          (P2 (ix2 p q)) := by
  unfold k0_pay7 k0_pay4 k0_pay5 k0_pay6 k0_pay2 k0_pay3 cellNew
  exact congrArg₂ (· + ·)
    (congrArg₂ (· * ·) (congrArg Ideal.logistic (gate_apply _ _ W1t W1b b1 _ _ _ p q)) rfl)
    (congrArg₂ (· * ·) (congrArg Ideal.logistic (gate_apply _ _ W2t W2b b2 _ _ _ p q))
      (congrArg Ideal.tanh (gate_apply _ _ W3t W3b b3 _ _ _ p q)))

/-- The new hidden state as the body computes it, at `(p, q)`. -/
theorem hnew_pay (P0 P1 P2 : FVec Ideal S256x1024 .f32) (W1t W1b : FVec Ideal S1024x1024 .bf16) (b1 : FVec Ideal S1x1024 .f32)
    (W2t W2b : FVec Ideal S1024x1024 .bf16) (b2 : FVec Ideal S1x1024 .f32) (W3t W3b : FVec Ideal S1024x1024 .bf16) (b3 : FVec Ideal S1x1024 .f32)
    (W4t W4b : FVec Ideal S1024x1024 .bf16) (b4 : FVec Ideal S1x1024 .f32) (p : Fin 256) (q : Fin 1024) :
    k0_pay8 (F := Ideal) (k0_pay2 P0) (k0_pay3 P1) (k0_pay4 P0 P1 P2 W1t W1b b1) (k0_pay5 P0 P1 W2t W2b b2) (k0_pay6 W3t) W3b b3 W4t W4b b4 (ix2 p q)
      = hidNew (pre (fun k => P0 (ix2 p k)) (fun k => P1 (ix2 p k)) (fun k => W4t (ix2 k q)) (fun k => W4b (ix2 k q)) (b4 (ix2 (0 : Fin 1) q)))
          (k0_pay7 (F := Ideal) (k0_pay2 P0) (k0_pay3 P1) (k0_pay4 P0 P1 P2 W1t W1b b1) (k0_pay5 P0 P1 W2t W2b b2) (k0_pay6 W3t) W3b b3 (ix2 p q)) := by
  unfold k0_pay8 hidNew
  exact congrArg₂ (· * ·) (congrArg Ideal.logistic (gate_apply (k0_pay2 P0) (k0_pay3 P1) W4t W4b b4 _ _ _ p q)) rfl

/-- The logits as the body computes them — the new hidden block against the read-out weights, plus the read-out bias
    row — at `(p, j)`. -/
theorem logit_pay (v1 v3 : FVec Ideal S256x1024 .bf16) (v17 v29 : FVec Ideal S256x1024 .f32) (v31 : FVec Ideal S1024x1024 .bf16)
    (v32 : FVec Ideal S1024x1024 .bf16) (v37 : FVec Ideal S1x1024 .f32) (v44 v46 : FVec Ideal S1024x1024 .bf16) (v51 : FVec Ideal S1x1024 .f32)
    (Wo : FVec Ideal S1024x1024 .bf16) (bo : FVec Ideal S1x1024 .f32) (p : Fin 256) (j : Fin 1024) :
    k0_pay9 v1 v3 v17 v29 v31 v32 v37 v44 v46 v51 Wo bo (ix2 p j)
      = (∑ k : Fin 1024, k0_pay8 v1 v3 v17 v29 v31 v32 v37 v44 v46 v51 (ix2 p k) * Wo (ix2 k j)) + bo (ix2 (0 : Fin 1) j) := by
  unfold k0_pay9
  have e2 : ∀ (hc' : S1x1024.ShapeCasts S1x1024) (hb : S1x1024.Broadcasts S256x1024),
      broadcastTo S256x1024 (shapeCast S1x1024 bo hc') hb (ix2 p j) = bo (ix2 (0 : Fin 1) j) := fun hc' hb => by
    rw [shapeCast_self]; exact broadcastTo_1b_ab_apply bo hb p j
  exact congrArg₂ (· + ·) (mm_apply _ Wo _ p j) (e2 _ _)

/-- A lane sum over a block's rows: at row `p` the sum of the row's entries. -/
theorem rowsum_apply (V : FVec Ideal S256x1024 .f32) (h : S256x1024.Reduces [1] S256) (hφ : FKind.Formats .f32)
    (hacc : (0x00000000#32 : BitVec 32) = FKind.add.neutral .f32 hφ) (p : Fin 256) :
    multiReduction .add [1] S256 V 0x00000000#32 h hφ hacc (ix1 p) = ∑ k : Fin 1024, V (ix2 p k) := by
  refine (Ideal.multiReduction_add_single V 0x00000000#32 h hφ hacc (ix1 p)).trans ?_
  exact Finset.sum_congr rfl fun k _ => congrArg V (funext fun a => Fin.ext (by match a with | ⟨0, _⟩ => rfl | ⟨1, _⟩ => rfl))

/-- A lane maximum over a block's rows, from `-∞`: at row `p` the row's maximum. -/
theorem rowmax_apply (V : FVec Ideal S256x1024 .f32) (h : S256x1024.Reduces [1] S256) (hφ : FKind.Formats .f32)
    (hacc : (0xFF800000#32 : BitVec 32) = FKind.maximumf.neutral .f32 hφ) (p : Fin 256) :
    multiReduction .maximumf [1] S256 V 0xFF800000#32 h hφ hacc (ix1 p) = rowMax (fun j => V (ix2 p j)) := by
  refine (Ideal.multiReduction_maximumf_single V 0xFF800000#32 h hφ hacc (ix1 p)).trans ?_
  show Finset.fold max (Ideal.ofBits .f32 0xFF800000#32) (fun k : Fin 1024 => V (h.lift (ix1 p) k)) Finset.univ = _
  unfold rowMax
  rw [ofBits_neg_inf]
  refine congrArg (fun f : Fin 1024 → EReal => Finset.fold max ⊥ f Finset.univ) (funext fun k => ?_)
  exact congrArg V (funext fun a => Fin.ext (by match a with | ⟨0, _⟩ => rfl | ⟨1, _⟩ => rfl))

/-- The log-softmax step of the body, from the logits block `L` and the column `M` of row maxima, at `(p, q)`. -/
theorem softmax_pay (L : FVec Ideal S256x1024 .f32) (M : FVec Ideal S256 .f32) (p : Fin 256) (q : Fin 1024) :
    k0_pay1 L M (ix2 p q)
      = (L (ix2 p q) - M (ix1 p)) - Ideal.log (∑ k : Fin 1024, Ideal.exp (L (ix2 p k) - M (ix1 p))) := by
  have col : ∀ (v : FVec Ideal S256 .f32) (hc : S256.ShapeCasts S256x1) (hb : S256x1.Broadcasts S256x1024) (k : Fin 1024),
      broadcastTo S256x1024 (shapeCast S256x1 v hc) hb (ix2 p k) = v (ix1 p) := fun v hc hb k =>
    (broadcastTo_a1_ab_apply _ hb p k).trans (shapeCast_a_a1_apply v hc p 0)
  have colLog : ∀ (v : FVec Ideal S256 .f32) (hc : S256.ShapeCasts S256x1) (hb : S256x1.Broadcasts S256x1024) (k : Fin 1024),
      broadcastTo S256x1024 (log (shapeCast S256x1 v hc)) hb (ix2 p k) = Ideal.log (v (ix1 p)) := fun v hc hb k =>
    (broadcastTo_a1_ab_apply _ hb p k).trans (congrArg Ideal.log (shapeCast_a_a1_apply v hc p 0))
  unfold k0_pay1
  refine congrArg₂ (· - ·) (congrArg₂ (· - ·) rfl (col M _ _ q)) ((colLog _ _ _ q).trans (congrArg Ideal.log ?_))
  refine (rowsum_apply _ _ _ _ p).trans (Finset.sum_congr rfl fun k _ => ?_)
  exact congrArg Ideal.exp (congrArg₂ (· - ·) rfl (col M _ _ k))

/-- The read-out block as the body computes it: the log-softmax of each row of the logits block. -/
theorem out_pay (v1 v3 : FVec Ideal S256x1024 .bf16) (v17 v29 : FVec Ideal S256x1024 .f32) (v31 : FVec Ideal S1024x1024 .bf16)
    (v32 : FVec Ideal S1024x1024 .bf16) (v37 : FVec Ideal S1x1024 .f32) (v44 v46 : FVec Ideal S1024x1024 .bf16) (v51 : FVec Ideal S1x1024 .f32)
    (Wo : FVec Ideal S1024x1024 .bf16) (bo : FVec Ideal S1x1024 .f32) (p : Fin 256) (q : Fin 1024) :
    k0_pay1 (k0_pay9 v1 v3 v17 v29 v31 v32 v37 v44 v46 v51 Wo bo) (k0_pay10 v1 v3 v17 v29 v31 v32 v37 v44 v46 v51 Wo bo) (ix2 p q)
      = logSoftmax (fun j => k0_pay9 v1 v3 v17 v29 v31 v32 v37 v44 v46 v51 Wo bo (ix2 p j)) q := by
  have hM : k0_pay10 v1 v3 v17 v29 v31 v32 v37 v44 v46 v51 Wo bo (ix1 p)
      = rowMax (fun j => k0_pay9 v1 v3 v17 v29 v31 v32 v37 v44 v46 v51 Wo bo (ix2 p j)) := by
    unfold k0_pay10
    exact rowmax_apply _ _ _ _ p
  rw [softmax_pay, hM]
  rfl

end Cert.KernelIdeal.Body

end
-- ==== Proof.KernelBlock.lean ====
/-
  One block of the kernel against the arrays.

  At a grid point the body sees a block of 256 rows of `x`, `h`, `c` and the whole of the gate weights, the gate bias (as a
  1 × 4096 row), the read-out weights and the read-out bias (a 1 × 1024 row). If row `p` of the three activation blocks
  is row `r` of the arrays `X`, `H`, `C`, and the weight and bias buffers hold `Wg`, `bg`, `Wo`, `bo`, then at `(p, q)` the
  body's new cell state, new hidden state and read-out are the specification's arrays at `(r, q)`. The body loads the
  gate weights as eight 1024 × 1024 rectangles — for the gate whose columns start at `o`, rows 0–1023 and rows
  1024–2047 of columns `o … o + 1023` — and the gate bias as four 1 × 1024 rectangles: those loads are the upper and
  lower halves of weight column `o + q`, and bias entry `o + q`.
-/
import proofs.«128809_j22677427323268_2_alg».proof.Proof.KernelBody

noncomputable section

open scoped BigOperators

namespace Cert.KernelIdeal.Body

open Cert.KernelIdeal Cert.KernelIdeal.Gen Idealize.ShloMosaic Idealize.ShloMosaic.TcCoe Idealize.SL.Sem
open Idealize.ShloMosaic.ValueIdx Cert.LstmStep Cert.LibRectLoad

theorem hz : (![0, 0] : Fin 2 → Nat) = fun _ => 0 := funext fun a => by fin_cases a <;> rfl

/-- What the body's loads see of the arrays: row `p` of the activation blocks is row `r` of the arrays, and the weight
    and bias buffers hold the gate weights and the gate bias. -/
structure Sees (x0 x1 x2 : FVec Ideal S256x1024 .f32) (x3 : Vec Ideal S2048x4096 .bf16) (x4 : Vec Ideal S1x4096 .f32)
    (X H C : SAct.Idx → EReal) (Wg : SWg.Idx → EReal) (bg : Fin 4096 → EReal) (p : Fin 256) (r : Fin 16384) : Prop where
  hx : ∀ k : Fin 1024, x0 (ix2 p k) = X (ix2 r k)
  hh : ∀ k : Fin 1024, x1 (ix2 p k) = H (ix2 r k)
  hc : ∀ k : Fin 1024, x2 (ix2 p k) = C (ix2 r k)
  hw : ∀ (a : Fin 2048) (b : Fin 4096), x3 (ix2 a b) = Wg (ix2 a b)
  hb : ∀ b : Fin 4096, x4 (ix2 (0 : Fin 1) b) = bg b

variable {x0 x1 x2 : FVec Ideal S256x1024 .f32} {x3 : Vec Ideal S2048x4096 .bf16} {x4 : Vec Ideal S1x4096 .f32}
  {X H C : SAct.Idx → EReal} {Wg : SWg.Idx → EReal} {bg : Fin 4096 → EReal} {p : Fin 256} {r : Fin 16384}

/-- The pre-activation of the gate whose columns start at `o`, from the body's loads, is the specification's. -/
theorem pre_val (S : Sees x0 x1 x2 x3 x4 X H C Wg bg p r) (q : Fin 1024) (o : ℕ) (ho : o + 1024 ≤ 4096)
    (inbT : ∀ a, ![0, o] a + S1024x1024.size a ≤ S2048x4096.size a)
    (inbB : ∀ a, ![1024, o] a + S1024x1024.size a ≤ S2048x4096.size a)
    (inbb : ∀ a, ![0, o] a + S1x1024.size a ≤ S1x4096.size a) :
    pre (fun k => x0 (ix2 p k)) (fun k => x1 (ix2 p k))
        (fun k => View.ld x3 (Rect.unit (s := S2048x4096) ![0, o] S1024x1024.size inbT) (ix2 k q))
        (fun k => View.ld x3 (Rect.unit (s := S2048x4096) ![1024, o] S1024x1024.size inbB) (ix2 k q))
        (View.ld x4 (Rect.unit (s := S1x4096) ![0, o] S1x1024.size inbb) (ix2 (0 : Fin 1) q))
      = preAt X H Wg bg o ho r q := by
  have hq := q.isLt
  unfold preAt
  have ea : (fun k => x0 (ix2 p k)) = rowOf X r := funext S.hx
  have eb : (fun k => x1 (ix2 p k)) = rowOf H r := funext S.hh
  have ec : (fun k : Fin 1024 => View.ld x3 (Rect.unit (s := S2048x4096) ![0, o] S1024x1024.size inbT) (ix2 k q))
      = wTop Wg (gcol o ho q) := funext fun k => by
    have hk := k.isLt
    rw [ld2_apply x3 0 o inbT k q (by omega) (by omega), S.hw]
    exact congrArg Wg (congrArg₂ ix2 (Fin.ext (by show 0 + k.val = k.val; omega)) rfl)
  have ed : (fun k : Fin 1024 => View.ld x3 (Rect.unit (s := S2048x4096) ![1024, o] S1024x1024.size inbB) (ix2 k q))
      = wBot Wg (gcol o ho q) := funext fun k => by
    have hk := k.isLt
    rw [ld2_apply x3 1024 o inbB k q (by omega) (by omega), S.hw]
    rfl
  have ee : View.ld x4 (Rect.unit (s := S1x4096) ![0, o] S1x1024.size inbb) (ix2 (0 : Fin 1) q) = bg (gcol o ho q) := by
    rw [ld2_apply x4 0 o inbb (0 : Fin 1) q (by decide) (by omega)]
    exact (congrArg x4 (congrArg₂ ix2 (Fin.ext (by rfl)) rfl)).trans (S.hb _)
  rw [ea, eb, ec, ed, ee]

/-- The body's new cell state over its loads. -/
abbrev cVal (x0 x1 x2 : FVec Ideal S256x1024 .f32) (x3 : Vec Ideal S2048x4096 .bf16) (x4 : Vec Ideal S1x4096 .f32) :
    FVec Ideal S256x1024 .f32 :=
  k0_pay7 (F := Ideal) (k0_pay2 x0) (k0_pay3 x1) (k0_pay4 x0 x1 x2 (View.ld x3 r0_1) (View.ld x3 r0_2) (View.ld x4 r0_3))
    (k0_pay5 x0 x1 (View.ld x3 r0_4) (View.ld x3 r0_5) (View.ld x4 r0_6)) (k0_pay6 (View.ld x3 r0_7)) (View.ld x3 r0_8) (View.ld x4 r0_9)

/-- The body's new hidden state over its loads. -/
abbrev hVal (x0 x1 x2 : FVec Ideal S256x1024 .f32) (x3 : Vec Ideal S2048x4096 .bf16) (x4 : Vec Ideal S1x4096 .f32) :
    FVec Ideal S256x1024 .f32 :=
  k0_pay8 (F := Ideal) (k0_pay2 x0) (k0_pay3 x1) (k0_pay4 x0 x1 x2 (View.ld x3 r0_1) (View.ld x3 r0_2) (View.ld x4 r0_3))
    (k0_pay5 x0 x1 (View.ld x3 r0_4) (View.ld x3 r0_5) (View.ld x4 r0_6)) (k0_pay6 (View.ld x3 r0_7)) (View.ld x3 r0_8) (View.ld x4 r0_9)
    (View.ld x3 r0_10) (View.ld x3 r0_11) (View.ld x4 r0_12)

/-- The body's logits over its loads. -/
abbrev lVal (x0 x1 x2 : FVec Ideal S256x1024 .f32) (x3 : Vec Ideal S2048x4096 .bf16) (x4 : Vec Ideal S1x4096 .f32)
    (x5 : Vec Ideal S1024x1024 .bf16) (x6 : Vec Ideal S1x1024 .f32) : FVec Ideal S256x1024 .f32 :=
  k0_pay9 (F := Ideal) (k0_pay2 x0) (k0_pay3 x1) (k0_pay4 x0 x1 x2 (View.ld x3 r0_1) (View.ld x3 r0_2) (View.ld x4 r0_3))
    (k0_pay5 x0 x1 (View.ld x3 r0_4) (View.ld x3 r0_5) (View.ld x4 r0_6)) (k0_pay6 (View.ld x3 r0_7)) (View.ld x3 r0_8) (View.ld x4 r0_9)
    (View.ld x3 r0_10) (View.ld x3 r0_11) (View.ld x4 r0_12) x5 x6

/-- The body's new cell state at `(p, q)` is the specification's at `(r, q)`. -/
theorem cnew_val (S : Sees x0 x1 x2 x3 x4 X H C Wg bg p r) (q : Fin 1024) :
    cVal x0 x1 x2 x3 x4 (ix2 p q) = cNewArr X H C Wg bg (ix2 r q) := by
  refine (cnew_pay x0 x1 x2 _ _ _ _ _ _ _ _ _ p q).trans ?_
  show cellNew _ _ _ _ = cellNew _ _ _ _
  exact congr (congr (congr (congrArg cellNew (pre_val S q 0 (by norm_num) _ _ _)) (pre_val S q 1024 (by norm_num) _ _ _))
    (pre_val S q 2048 (by norm_num) _ _ _)) (S.hc q)

/-- The body's new hidden state at `(p, q)` is the specification's at `(r, q)`. -/
theorem hnew_val (S : Sees x0 x1 x2 x3 x4 X H C Wg bg p r) (q : Fin 1024) :
    hVal x0 x1 x2 x3 x4 (ix2 p q) = hNewArr X H C Wg bg (ix2 r q) := by
  refine (hnew_pay x0 x1 x2 _ _ _ _ _ _ _ _ _ _ _ _ p q).trans ?_
  show hidNew _ _ = hidNew _ _
  exact congr (congrArg hidNew (pre_val S q 3072 (by norm_num) _ _ _)) (cnew_val S q)

/-- The body's logits at `(p, j)` are the specification's at `(r, j)`, when the read-out buffers hold `Wo` and `bo`. -/
theorem logit_val (S : Sees x0 x1 x2 x3 x4 X H C Wg bg p r) (x5 : Vec Ideal S1024x1024 .bf16) (x6 : Vec Ideal S1x1024 .f32)
    (Wo : SWo.Idx → EReal) (bo : Fin 1024 → EReal) (h5 : ∀ a b : Fin 1024, x5 (ix2 a b) = Wo (ix2 a b))
    (h6 : ∀ b : Fin 1024, x6 (ix2 (0 : Fin 1) b) = bo b) (j : Fin 1024) :
    lVal x0 x1 x2 x3 x4 x5 x6 (ix2 p j) = logitAt (hNewArr X H C Wg bg) Wo bo r j := by
  refine (logit_pay _ _ _ _ _ _ _ _ _ _ x5 x6 p j).trans ?_
  unfold logitAt
  exact congrArg₂ (· + ·) (Finset.sum_congr rfl fun k _ => congrArg₂ (· * ·) (hnew_val S k) (h5 k j)) (h6 j)

/-- The body's read-out at `(p, q)` is the specification's at `(r, q)`. -/
theorem out_val (S : Sees x0 x1 x2 x3 x4 X H C Wg bg p r) (x5 : Vec Ideal S1024x1024 .bf16) (x6 : Vec Ideal S1x1024 .f32)
    (Wo : SWo.Idx → EReal) (bo : Fin 1024 → EReal) (h5 : ∀ a b : Fin 1024, x5 (ix2 a b) = Wo (ix2 a b))
    (h6 : ∀ b : Fin 1024, x6 (ix2 (0 : Fin 1) b) = bo b) (q : Fin 1024) :
    k0_pay1 (lVal x0 x1 x2 x3 x4 x5 x6)
        (k0_pay10 (F := Ideal) (k0_pay2 x0) (k0_pay3 x1) (k0_pay4 x0 x1 x2 (View.ld x3 r0_1) (View.ld x3 r0_2) (View.ld x4 r0_3))
          (k0_pay5 x0 x1 (View.ld x3 r0_4) (View.ld x3 r0_5) (View.ld x4 r0_6)) (k0_pay6 (View.ld x3 r0_7)) (View.ld x3 r0_8) (View.ld x4 r0_9)
          (View.ld x3 r0_10) (View.ld x3 r0_11) (View.ld x4 r0_12) x5 x6) (ix2 p q)
      = outArr X H C Wg bg Wo bo (ix2 r q) := by
  refine (out_pay _ _ _ _ _ _ _ _ _ _ x5 x6 p q).trans ?_
  show logSoftmax _ q = logSoftmax _ q
  exact congrArg (fun l => logSoftmax l q) (funext fun j => logit_val S x5 x6 Wo bo h5 h6 j)

/-- What the body leaves in the three output blocks, over its loads: the single store of each covers the block. -/
theorem out9_eq (x5 : Vec Ideal S1024x1024 .bf16) (x6 : Vec Ideal S1x1024 .f32) :
    out0_9 x0 x1 x2 x3 x4 x5 x6 = cVal x0 x1 x2 x3 x4 := by
  unfold out0_9
  rw [View.canon_unit_zero hz]
  simp only [View.ld_unit_zero (S := S256x1024) hz]

theorem out8_eq (x5 : Vec Ideal S1024x1024 .bf16) (x6 : Vec Ideal S1x1024 .f32) :
    out0_8 x0 x1 x2 x3 x4 x5 x6 = hVal x0 x1 x2 x3 x4 := by
  unfold out0_8
  rw [View.canon_unit_zero hz]
  simp only [View.ld_unit_zero (S := S256x1024) hz]

theorem out7_eq (x5 : Vec Ideal S1024x1024 .bf16) (x6 : Vec Ideal S1x1024 .f32) :
    out0_7 x0 x1 x2 x3 x4 x5 x6 = k0_pay1 (lVal x0 x1 x2 x3 x4 x5 x6)
        (k0_pay10 (F := Ideal) (k0_pay2 x0) (k0_pay3 x1) (k0_pay4 x0 x1 x2 (View.ld x3 r0_1) (View.ld x3 r0_2) (View.ld x4 r0_3))
          (k0_pay5 x0 x1 (View.ld x3 r0_4) (View.ld x3 r0_5) (View.ld x4 r0_6)) (k0_pay6 (View.ld x3 r0_7)) (View.ld x3 r0_8) (View.ld x4 r0_9)
          (View.ld x3 r0_10) (View.ld x3 r0_11) (View.ld x4 r0_12) x5 x6) := by
  unfold out0_7
  rw [View.canon_unit_zero hz]
  simp only [View.ld_unit_zero (S := S256x1024) hz, View.ld_unit_zero (S := S1024x1024) hz, View.ld_unit_zero (S := S1x1024) hz]

end Cert.KernelIdeal.Body

end
-- ==== Proof.KernelArrays.lean ====
/-
  From blocks to arrays: what the kernel's three result arrays hold after the run.

  The grid has 64 points; point `t` works on rows `256·t … 256·t + 255` of `x`, `h`, `c` and of the three results, and
  on the whole of the weight and bias arrays (each index map decided once over the 64 points). The weights reach the
  kernel through a change of float format, the identity on exact values, and the biases through a reshape of a vector
  into a one-row matrix. So what point `t` writes back is block `t` of the specification's arrays (the block-level
  statements, instantiated at the point's blocks); every row lies in the block of point `row / 256`, so the blocks cover
  the arrays, and each result array ends as the specification's array of the argument arrays.
-/
import proofs.«128809_j22677427323268_2_alg».proof.Proof.KernelBlock
import Idealize.ShloMosaic.Lib.Pipeline.Value
import Idealize.ShloMosaic.Lib.ValueLayout
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.StableHlo
open Idealize.ShloMosaic.ValueIdx Cert.LstmStep Cert.KernelIdeal.Body

variable (m : (ℓ : Loc nD τ sig) → Buf (Elt Ideal) ℓ) (ρ : Dev nD → PrngReg)

/-! ## The index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-! ## The arrays the host operations before the region wrote -/

/-- The gate weights after their change of float format are the gate weights. -/
theorem V_v0_apply (c : Dev nD) (i : S2048x4096.Idx) :
    (V m c main_v0 : S2048x4096.Idx → EReal) i = (m ((c : Thread nD τ).loc main_arg3) : S2048x4096.Idx → EReal) i := by
  have e : (V m c main_v0 : S2048x4096.Idx → EReal)
      = (truncf .bf16 (m ((c : Thread nD τ).loc main_arg3) : FVec Ideal S2048x4096 .f32) (show FTy.bf16.bits < FTy.f32.bits by decide) : FVec Ideal S2048x4096 .bf16) := by
    dsimp only [Gen.V, Gen.hostOps0]; after_results <;> rfl
  rw [e]; rfl

/-- The read-out weights after their change of float format are the read-out weights. -/
theorem V_v1_apply (c : Dev nD) (i : S1024x1024.Idx) :
    (V m c main_v1 : S1024x1024.Idx → EReal) i = (m ((c : Thread nD τ).loc main_arg5) : S1024x1024.Idx → EReal) i := by
  have e : (V m c main_v1 : S1024x1024.Idx → EReal)
      = (truncf .bf16 (m ((c : Thread nD τ).loc main_arg5) : FVec Ideal S1024x1024 .f32) (show FTy.bf16.bits < FTy.f32.bits by decide) : FVec Ideal S1024x1024 .bf16) := by
    dsimp only [Gen.V, Gen.hostOps0]; after_results <;> rfl
  rw [e]; rfl

/-- The gate bias reshaped into a one-row matrix reads, in column `b`, the bias entry `b`. -/
theorem V_v2_apply (c : Dev nD) (b : Fin 4096) :
    (V m c main_v2 : S1x4096.Idx → EReal) (ix2 (0 : Fin 1) b) = (m ((c : Thread nD τ).loc main_arg4) : S4096.Idx → EReal) (ix1 b) := by
  have e : (V m c main_v2 : S1x4096.Idx → EReal)
      = shapeCast S1x4096 (m ((c : Thread nD τ).loc main_arg4) : S4096.Idx → EReal) shapeCasts_S4096_S1x4096 := by
    dsimp only [Gen.V, Gen.hostOps0]; after_results <;> rfl
  rw [e]; exact shapeCast_a_1a_apply _ _ 0 b

/-- The read-out bias reshaped into a one-row matrix reads, in column `b`, the bias entry `b`. -/
theorem V_v3_apply (c : Dev nD) (b : Fin 1024) :
    (V m c main_v3 : S1x1024.Idx → EReal) (ix2 (0 : Fin 1) b) = (m ((c : Thread nD τ).loc main_arg6) : S1024.Idx → EReal) (ix1 b) := by
  have e : (V m c main_v3 : S1x1024.Idx → EReal)
      = shapeCast S1x1024 (m ((c : Thread nD τ).loc main_arg6) : S1024.Idx → EReal) shapeCasts_S1024_S1x1024 := by
    dsimp only [Gen.V, Gen.hostOps0]; after_results <;> rfl
  rw [e]; exact shapeCast_a_1a_apply _ _ 0 b

/-! ## The blocks at a grid point -/

theorem act0 (c : Dev nD) (t : Fin cfg0.N) (p : Fin 256) (k : Fin 1024) (r : Fin 16384) (hr : r.val = t.val * 256 + p.val) :
    iblk m c 0 t (ix2 p k) = m ((c : Thread nD τ).loc main_arg0) (ix2 r k) := by
  obtain ⟨e0, e1⟩ := idx0 t
  rw [← V_main_arg0 m c]
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega
theorem act1 (c : Dev nD) (t : Fin cfg0.N) (p : Fin 256) (k : Fin 1024) (r : Fin 16384) (hr : r.val = t.val * 256 + p.val) :
    iblk m c 1 t (ix2 p k) = m ((c : Thread nD τ).loc main_arg1) (ix2 r k) := by
  obtain ⟨e0, e1⟩ := idx1 t
  rw [← V_main_arg1 m c]
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega
theorem act2 (c : Dev nD) (t : Fin cfg0.N) (p : Fin 256) (k : Fin 1024) (r : Fin 16384) (hr : r.val = t.val * 256 + p.val) :
    iblk m c 2 t (ix2 p k) = m ((c : Thread nD τ).loc main_arg2) (ix2 r k) := by
  obtain ⟨e0, e1⟩ := idx2 t
  rw [← V_main_arg2 m c]
  show V m c main_arg2 (((cfg0.win 2).blk t).view.emb (ix2 p k)) = V m c main_arg2 (ix2 r k)
  refine congrArg (V m c main_arg2) (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega
theorem whole3 (c : Dev nD) (t : Fin cfg0.N) (a : Fin 2048) (b : Fin 4096) :
    iblk m c 3 t (ix2 a b) = (V m c main_v0 : S2048x4096.Idx → EReal) (ix2 a b) := by
  obtain ⟨e0, e1⟩ := idx3 t
  show V m c main_v0 (((cfg0.win 3).blk t).view.emb (ix2 a b)) = V m c main_v0 (ix2 a b)
  refine congrArg (V m c main_v0) (funext fun d => Fin.ext ?_)
  match d with
  | ⟨0, _⟩ => show win0_3.index t (0 : Fin 2) * 2048 + 1 * a.val = a.val; omega
  | ⟨1, _⟩ => show win0_3.index t (1 : Fin 2) * 4096 + 1 * b.val = b.val; omega
theorem whole4 (c : Dev nD) (t : Fin cfg0.N) (a : Fin 1) (b : Fin 4096) :
    iblk m c 4 t (ix2 a b) = (V m c main_v2 : S1x4096.Idx → EReal) (ix2 a b) := by
  obtain ⟨e0, e1⟩ := idx4 t
  show V m c main_v2 (((cfg0.win 4).blk t).view.emb (ix2 a b)) = V m c main_v2 (ix2 a b)
  refine congrArg (V m c main_v2) (funext fun d => Fin.ext ?_)
  match d with
  | ⟨0, _⟩ => show win0_4.index t (0 : Fin 2) * 1 + 1 * a.val = a.val; omega
  | ⟨1, _⟩ => show win0_4.index t (1 : Fin 2) * 4096 + 1 * b.val = b.val; omega
theorem whole5 (c : Dev nD) (t : Fin cfg0.N) (a : Fin 1024) (b : Fin 1024) :
    iblk m c 5 t (ix2 a b) = (V m c main_v1 : S1024x1024.Idx → EReal) (ix2 a b) := by
  obtain ⟨e0, e1⟩ := idx5 t
  show V m c main_v1 (((cfg0.win 5).blk t).view.emb (ix2 a b)) = V m c main_v1 (ix2 a b)
  refine congrArg (V m c main_v1) (funext fun d => Fin.ext ?_)
  match d with
  | ⟨0, _⟩ => show win0_5.index t (0 : Fin 2) * 1024 + 1 * a.val = a.val; omega
  | ⟨1, _⟩ => show win0_5.index t (1 : Fin 2) * 1024 + 1 * b.val = b.val; omega
theorem whole6 (c : Dev nD) (t : Fin cfg0.N) (a : Fin 1) (b : Fin 1024) :
    iblk m c 6 t (ix2 a b) = (V m c main_v3 : S1x1024.Idx → EReal) (ix2 a b) := by
  obtain ⟨e0, e1⟩ := idx6 t
  show V m c main_v3 (((cfg0.win 6).blk t).view.emb (ix2 a b)) = V m c main_v3 (ix2 a b)
  refine congrArg (V m c main_v3) (funext fun d => Fin.ext ?_)
  match d with
  | ⟨0, _⟩ => show win0_6.index t (0 : Fin 2) * 1 + 1 * a.val = a.val; omega
  | ⟨1, _⟩ => show win0_6.index t (1 : Fin 2) * 1024 + 1 * b.val = b.val; omega

/-- At point `t`, row `p` of the activation blocks is row `256·t + p` of the argument arrays, and the weight and bias
    blocks hold the gate weights and the gate bias. -/
theorem sees (c : Dev nD) (t : Fin cfg0.N) (p : Fin 256) (r : Fin 16384) (hr : r.val = t.val * 256 + p.val) :
    Sees (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) p r where
  hx := fun k => act0 m c t p k r hr
  hh := fun k => act1 m c t p k r hr
  hc := fun k => act2 m c t p k r hr
  hw := fun a b => (whole3 m c t a b).trans (V_v0_apply m c (ix2 a b))
  hb := fun b => (whole4 m c t 0 b).trans (V_v2_apply m c b)

theorem sees5 (c : Dev nD) (t : Fin cfg0.N) (a b : Fin 1024) : iblk m c 5 t (ix2 a b) = (m ((c : Thread nD τ).loc main_arg5) : S1024x1024.Idx → EReal) (ix2 a b) :=
  (whole5 m c t a b).trans (V_v1_apply m c (ix2 a b))

theorem sees6 (c : Dev nD) (t : Fin cfg0.N) (b : Fin 1024) : iblk m c 6 t (ix2 (0 : Fin 1) b) = (m ((c : Thread nD τ).loc main_arg6) : S1024.Idx → EReal) (ix1 b) :=
  (whole6 m c t 0 b).trans (V_v3_apply m c b)

/-! ## What each point writes back -/

/-- Point `t` writes back block `t` of the specification's new cell state. -/
theorem flushed9_eq (c : Dev nD) (t : Fin cfg0.N) :
    (dats m 0 c).flushed 9 t = ((cfg0.win 9).blk t).view.read (Elt Ideal) (cNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j))) := by
  rw [Value.flushed9]
  funext y
  obtain ⟨p, q, rfl⟩ : ∃ (p : Fin 256) (q : Fin 1024), y = ix2 p q := ⟨y 0, y 1, eq_ix2 y⟩
  have hp := p.isLt
  have ht : t.val < 64 := lt_of_lt_of_eq t.isLt N_0
  have hr : t.val * 256 + p.val < 16384 := by omega
  obtain ⟨e0, e1⟩ := idx9 t
  show out0_9 (iblk m c 0 t) (iblk m c 1 t) (iblk m c 2 t) (iblk m c 3 t) (iblk m c 4 t) (iblk m c 5 t) (iblk m c 6 t) (ix2 p q)
    = cNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) (((cfg0.win 9).blk t).view.emb (ix2 p q))
  rw [out9_eq (x0 := iblk m c 0 t) (x1 := iblk m c 1 t) (x2 := iblk m c 2 t) (x3 := iblk m c 3 t) (x4 := iblk m c 4 t) (iblk m c 5 t) (iblk m c 6 t)]
  refine (cnew_val (sees m c t p ⟨t.val * 256 + p.val, hr⟩ rfl) q).trans ?_
  refine congrArg (cNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j))) (funext fun a => Fin.ext ?_)
  match a with
  | ⟨0, _⟩ => show t.val * 256 + p.val = win0_9.index t (0 : Fin 2) * 256 + 1 * p.val; omega
  | ⟨1, _⟩ => show q.val = win0_9.index t (1 : Fin 2) * 1024 + 1 * q.val; omega

/-- Point `t` writes back block `t` of the specification's new hidden state. -/
theorem flushed8_eq (c : Dev nD) (t : Fin cfg0.N) :
    (dats m 0 c).flushed 8 t = ((cfg0.win 8).blk t).view.read (Elt Ideal) (hNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j))) := by
  rw [Value.flushed8]
  funext y
  obtain ⟨p, q, rfl⟩ : ∃ (p : Fin 256) (q : Fin 1024), y = ix2 p q := ⟨y 0, y 1, eq_ix2 y⟩
  have hp := p.isLt
  have ht : t.val < 64 := lt_of_lt_of_eq t.isLt N_0
  have hr : t.val * 256 + p.val < 16384 := by omega
  obtain ⟨e0, e1⟩ := idx8 t
  show out0_8 (iblk m c 0 t) (iblk m c 1 t) (iblk m c 2 t) (iblk m c 3 t) (iblk m c 4 t) (iblk m c 5 t) (iblk m c 6 t) (ix2 p q)
    = hNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) (((cfg0.win 8).blk t).view.emb (ix2 p q))
  rw [out8_eq (x0 := iblk m c 0 t) (x1 := iblk m c 1 t) (x2 := iblk m c 2 t) (x3 := iblk m c 3 t) (x4 := iblk m c 4 t) (iblk m c 5 t) (iblk m c 6 t)]
  refine (hnew_val (sees m c t p ⟨t.val * 256 + p.val, hr⟩ rfl) q).trans ?_
  refine congrArg (hNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j))) (funext fun a => Fin.ext ?_)
  match a with
  | ⟨0, _⟩ => show t.val * 256 + p.val = win0_8.index t (0 : Fin 2) * 256 + 1 * p.val; omega
  | ⟨1, _⟩ => show q.val = win0_8.index t (1 : Fin 2) * 1024 + 1 * q.val; omega

/-- Point `t` writes back block `t` of the specification's read-out. -/
theorem flushed7_eq (c : Dev nD) (t : Fin cfg0.N) :
    (dats m 0 c).flushed 7 t = ((cfg0.win 7).blk t).view.read (Elt Ideal) (outArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) (m ((c : Thread nD τ).loc main_arg5)) (fun j => m ((c : Thread nD τ).loc main_arg6) (ix1 j))) := by
  rw [Value.flushed7]
  funext y
  obtain ⟨p, q, rfl⟩ : ∃ (p : Fin 256) (q : Fin 1024), y = ix2 p q := ⟨y 0, y 1, eq_ix2 y⟩
  have hp := p.isLt
  have ht : t.val < 64 := lt_of_lt_of_eq t.isLt N_0
  have hr : t.val * 256 + p.val < 16384 := by omega
  obtain ⟨e0, e1⟩ := idx7 t
  show out0_7 (iblk m c 0 t) (iblk m c 1 t) (iblk m c 2 t) (iblk m c 3 t) (iblk m c 4 t) (iblk m c 5 t) (iblk m c 6 t) (ix2 p q)
    = outArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) (m ((c : Thread nD τ).loc main_arg5)) (fun j => m ((c : Thread nD τ).loc main_arg6) (ix1 j)) (((cfg0.win 7).blk t).view.emb (ix2 p q))
  rw [out7_eq (x0 := iblk m c 0 t) (x1 := iblk m c 1 t) (x2 := iblk m c 2 t) (x3 := iblk m c 3 t) (x4 := iblk m c 4 t) (iblk m c 5 t) (iblk m c 6 t)]
  refine (out_val (sees m c t p ⟨t.val * 256 + p.val, hr⟩ rfl) (iblk m c 5 t) (iblk m c 6 t) (m ((c : Thread nD τ).loc main_arg5)) (fun j => m ((c : Thread nD τ).loc main_arg6) (ix1 j)) (sees5 m c t) (sees6 m c t) q).trans ?_
  refine congrArg (outArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) (m ((c : Thread nD τ).loc main_arg5)) (fun j => m ((c : Thread nD τ).loc main_arg6) (ix1 j))) (funext fun a => Fin.ext ?_)
  match a with
  | ⟨0, _⟩ => show t.val * 256 + p.val = win0_7.index t (0 : Fin 2) * 256 + 1 * p.val; omega
  | ⟨1, _⟩ => show q.val = win0_7.index t (1 : Fin 2) * 1024 + 1 * q.val; omega

/-! ## The blocks cover the arrays -/

theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v4_0).slice (win0_7.rect t)).set ↔ _
  rw [View.set_slice_whole, Rect.mem_set_unit]
  exact Iff.rfl

/-- Every index of the array lies in the block of the grid point that holds its row: point `row / 256`. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  have ht : (i 0).val / 256 < cfg0.N := by rw [hN]; omega
  obtain ⟨e0, e1⟩ := idx7 ⟨(i 0).val / 256, ht⟩
  refine ⟨⟨(i 0).val / 256, ht⟩, flush0_7 _, ?_⟩
  rw [mem_blk7]
  intro a
  match a with
  | ⟨0, _⟩ =>
    show win0_7.index ⟨(i 0).val / 256, ht⟩ (0 : Fin 2) * 256 ≤ (i 0).val ∧ (i 0).val < win0_7.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, ht⟩ (1 : Fin 2) * 1024 ≤ (i 1).val ∧ (i 1).val < win0_7.index ⟨(i 0).val / 256, ht⟩ (1 : Fin 2) * 1024 + 1024
    rw [e1]; omega

theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v4_1).slice (win0_8.rect t)).set ↔ _
  rw [View.set_slice_whole, Rect.mem_set_unit]
  exact Iff.rfl

/-- Every index of the array lies in the block of the grid point that holds its row: point `row / 256`. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 64 := N_0
  have ht : (i 0).val / 256 < cfg0.N := by rw [hN]; omega
  obtain ⟨e0, e1⟩ := idx8 ⟨(i 0).val / 256, ht⟩
  refine ⟨⟨(i 0).val / 256, ht⟩, flush0_8 _, ?_⟩
  rw [mem_blk8]
  intro a
  match a with
  | ⟨0, _⟩ =>
    show win0_8.index ⟨(i 0).val / 256, ht⟩ (0 : Fin 2) * 256 ≤ (i 0).val ∧ (i 0).val < win0_8.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, ht⟩ (1 : Fin 2) * 1024 ≤ (i 1).val ∧ (i 1).val < win0_8.index ⟨(i 0).val / 256, ht⟩ (1 : Fin 2) * 1024 + 1024
    rw [e1]; omega

theorem mem_blk9 (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v4_2).slice (win0_9.rect t)).set ↔ _
  rw [View.set_slice_whole, Rect.mem_set_unit]
  exact Iff.rfl

/-- Every index of the array lies in the block of the grid point that holds its row: point `row / 256`. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  have hN : cfg0.N = 64 := N_0
  have ht : (i 0).val / 256 < cfg0.N := by rw [hN]; omega
  obtain ⟨e0, e1⟩ := idx9 ⟨(i 0).val / 256, ht⟩
  refine ⟨⟨(i 0).val / 256, ht⟩, flush0_9 _, ?_⟩
  rw [mem_blk9]
  intro a
  match a with
  | ⟨0, _⟩ =>
    show win0_9.index ⟨(i 0).val / 256, ht⟩ (0 : Fin 2) * 256 ≤ (i 0).val ∧ (i 0).val < win0_9.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, ht⟩ (1 : Fin 2) * 1024 ≤ (i 1).val ∧ (i 1).val < win0_9.index ⟨(i 0).val / 256, ht⟩ (1 : Fin 2) * 1024 + 1024
    rw [e1]; omega

/-! ## The arrays after the run -/

theorem final7 (c : Dev nD) : (dats m 0 c).arrAt 7 cfg0.N = outArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) (m ((c : Thread nD τ).loc main_arg5)) (fun j => m ((c : Thread nD τ).loc main_arg6) (ix1 j)) :=
  (dats m 0 c).arrAt_eq_of_cover 7 _ (fun t _ => flushed7_eq m c t) cover7

theorem final8 (c : Dev nD) : (dats m 0 c).arrAt 8 cfg0.N = hNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) :=
  (dats m 0 c).arrAt_eq_of_cover 8 _ (fun t _ => flushed8_eq m c t) cover8

theorem final9 (c : Dev nD) : (dats m 0 c).arrAt 9 cfg0.N = cNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) :=
  (dats m 0 c).arrAt_eq_of_cover 9 _ (fun t _ => flushed9_eq m c t) cover9

/-- The kernel's run: each result array ends as the specification's array of the argument arrays, the arguments
    unchanged. -/
theorem run : θ_run defs (onTc (τ := τ) (main (F := Ideal))) ⟨m, fun _ => 0, ρ⟩ fun r => ∀ c : Dev nD,
      r.2.mem ((c : Thread nD τ).loc main_v4_0) = outArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j)) (m ((c : Thread nD τ).loc main_arg5)) (fun j => m ((c : Thread nD τ).loc main_arg6) (ix1 j))
      ∧ r.2.mem ((c : Thread nD τ).loc main_v4_1) = hNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j))
      ∧ r.2.mem ((c : Thread nD τ).loc main_v4_2) = cNewArr (m ((c : Thread nD τ).loc main_arg0)) (m ((c : Thread nD τ).loc main_arg1)) (m ((c : Thread nD τ).loc main_arg2)) (m ((c : Thread nD τ).loc main_arg3)) (fun j => m ((c : Thread nD τ).loc main_arg4) (ix1 j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c), (h c).2.2.2⟩)
    (Value.run_blocks m ρ)

end Cert.KernelIdeal.Arrays

end
-- ==== Proof.LibConcatColumns.lean ====
/-
  Two arrays laid side by side.

  An `[m, n₁]` array and an `[m, n₂]` array joined along their second axis give an `[m, N]` array whose entry at
  `(p, j)` is the first array's entry at `(p, j)` when `j` is below `n₁`, and the second array's entry at
  `(p, j − n₁)` otherwise.
-/
import Idealize.ShloMosaic.Lib.Pipeline.Value
import Idealize.ShloMosaic.Lib.ValueIdx

namespace Cert.LibConcatColumns

open Idealize.ShloMosaic Idealize.ShloMosaic.ValueIdx

variable {α : Type}

/-- Joined along the second axis, at a column `j` of the first piece (`k`, with the same value) the joined array reads
    the first piece. -/
theorem concat_cols_left {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₁)
    (hk : k.val = j.val) :
    concatenate ⟨2, ![m, N]⟩ 1 [⟨⟨2, ![m, n₁]⟩, u⟩, ⟨⟨2, ![m, n₂]⟩, v⟩] h (ix2 p j) = u (ix2 p k) :=
  concatenate_pair_apply_left 1 u v h (ix2 p j) rfl (ix2 p k) fun b =>
    match b with
    | ⟨0, _⟩ => rfl
    | ⟨1, _⟩ => hk

/-- Joined along the second axis, at a column `j` past the first piece (`k + n₁ = j`) the joined array reads the
    second piece at column `k`. -/
theorem concat_cols_right {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₂)
    (hk : k.val + n₁ = j.val) :
    concatenate ⟨2, ![m, N]⟩ 1 [⟨⟨2, ![m, n₁]⟩, u⟩, ⟨⟨2, ![m, n₂]⟩, v⟩] h (ix2 p j) = v (ix2 p k) :=
  concatenate_pair_apply_right 1 u v h (ix2 p j) rfl rfl (ix2 p k)
    (fun b hb =>
      match b, hb with
      | ⟨0, _⟩, _ => rfl
      | ⟨1, _⟩, hb => absurd rfl hb)
    hk

end Cert.LibConcatColumns
-- ==== Proof.RefValue.lean ====
/-
  The reference, index by index.

  The reference joins `x` and `h` side by side into a 16384 × 2048 array, multiplies it with the whole 2048 × 4096
  gate-weight matrix, adds the bias, and cuts the result into the four gates' 16384 × 1024 pieces. At an entry of the
  piece that starts at column `o` this is a sum over 2048 terms; its first 1024 terms read `x` against the upper half
  of weight column `o + j` and its last 1024 read `h` against the lower half, so it is the specification's
  pre-activation (`sum_halves`). The reference spells the logistic function as `1 / (1 + e^(−t))`, which is the
  definition of the exact logistic function; its row maximum is the fold of `max` from `-∞` (followed by one more
  `max` with `-∞`, which changes nothing); and its row sum starts from the number zero.
-/
import proofs.«128809_j22677427323268_2_alg».proof.Proof.RefRead
import proofs.«128809_j22677427323268_2_alg».proof.Proof.Spec
import proofs.«128809_j22677427323268_2_alg».proof.Proof.LibConcatColumns
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.LstmStep Cert.LibConcatColumns

variable (x0 x1 x2 : (⟨S16384x1024, .f32⟩ : BufTy).Contents (Elt Ideal)) (x3 : (⟨S2048x4096, .f32⟩ : BufTy).Contents (Elt Ideal))
  (x4 : (⟨S4096, .f32⟩ : BufTy).Contents (Elt Ideal)) (x5 : (⟨S1024x1024, .f32⟩ : BufTy).Contents (Elt Ideal))
  (x6 : (⟨S1024, .f32⟩ : BufTy).Contents (Elt Ideal))

/-- The reference's spelling of the logistic function, `1 / (1 + e^(−t))` with both ones the f32 word of `1.0`, is the
    exact logistic function. -/
theorem sigmoid_eq (t : EReal) :
    Ideal.div (Ideal.ofBits .f32 0x3F800000#32) (Ideal.ofBits .f32 0x3F800000#32 + Ideal.exp (-t)) = Ideal.logistic t := by
  rw [ofBits_one]; rfl

/-- The wide product plus bias, at row `r` and column `o + j`, is the pre-activation of the gate whose columns start at
    `o`: the 2048-term sum over the joined row splits at the boundary between `x` and `h`. -/
theorem gate_eq (J : S16384x4096.Idx) (o : ℕ) (ho : o + 1024 ≤ 4096) (r : Fin 16384) (j : Fin 1024)
    (h0 : (J 0).val = r.val) (h1 : (J 1).val = o + j.val) :
    val_main_v4 (F := Ideal) x0 x1 x3 x4 J = preAt x0 x1 x3 (fun c => x4 (ix1 c)) o ho r j := by
  rw [val_main_v4_apply, val_main_v1_apply, val_main_v3_apply, val_main_v2_apply, Ideal.addf_def, sum_halves]
  unfold preAt pre
  refine congrArg₂ (· + ·) (congrArg₂ (· + ·) (Finset.sum_congr rfl fun k _ => ?_) (Finset.sum_congr rfl fun k _ => ?_)) ?_
  · show val_main_v0 (F := Ideal) x0 x1 (lidx_main_v1 J ⟨k.val, _⟩) * x3 (ridx_main_v1 J ⟨k.val, _⟩)
      = x0 (ix2 r k) * x3 (ix2 (⟨k.val, _⟩ : Fin 2048) (gcol o ho j))
    refine congrArg₂ (· * ·) ?_ (congrArg x3 (funext fun a => Fin.ext (by
      match a with
      | ⟨0, _⟩ => rfl
      | ⟨1, _⟩ => exact h1)))
    have e : lidx_main_v1 J ⟨k.val, by have := k.isLt; omega⟩ = ix2 r (⟨k.val, by have := k.isLt; omega⟩ : Fin 2048) :=
      funext fun a => Fin.ext (by
        match a with
        | ⟨0, _⟩ => exact h0
        | ⟨1, _⟩ => rfl)
    rw [e]
    exact concat_cols_left x0 x1 _ r _ k rfl
  · show val_main_v0 (F := Ideal) x0 x1 (lidx_main_v1 J ⟨1024 + k.val, _⟩) * x3 (ridx_main_v1 J ⟨1024 + k.val, _⟩)
      = x1 (ix2 r k) * x3 (ix2 (⟨1024 + k.val, _⟩ : Fin 2048) (gcol o ho j))
    refine congrArg₂ (· * ·) ?_ (congrArg x3 (funext fun a => Fin.ext (by
      match a with
      | ⟨0, _⟩ => rfl
      | ⟨1, _⟩ => exact h1)))
    have e : lidx_main_v1 J ⟨1024 + k.val, by have := k.isLt; omega⟩ = ix2 r (⟨1024 + k.val, by have := k.isLt; omega⟩ : Fin 2048) :=
      funext fun a => Fin.ext (by
        match a with
        | ⟨0, _⟩ => exact h0
        | ⟨1, _⟩ => rfl)
    rw [e]
    exact concat_cols_right x0 x1 _ r _ k (by show k.val + 1024 = 1024 + k.val; omega)
  · exact congrArg x4 (funext fun a => Fin.ext (by
      match a with
      | ⟨0, _⟩ => exact h1))

/-- The reference's new cell state is the specification's. -/
theorem cnew_eq : val_main_v30 (F := Ideal) x0 x1 x2 x3 x4 = cNewArr x0 x1 x2 x3 (fun c => x4 (ix1 c)) := by
  funext i
  have g5 := gate_eq x0 x1 x3 x4 (idx_main_v5 i) 0 (by norm_num) (rowIx i) (colIx i) rfl (by show (i 1).val = 0 + (i 1).val; omega)
  have g6 := gate_eq x0 x1 x3 x4 (idx_main_v6 i) 1024 (by norm_num) (rowIx i) (colIx i) rfl rfl
  have g7 := gate_eq x0 x1 x3 x4 (idx_main_v7 i) 2048 (by norm_num) (rowIx i) (colIx i) rfl rfl
  simp only [val_main_v30_apply, val_main_v28_apply, val_main_v29_apply, val_main_v14_apply, val_main_v20_apply, val_main_v21_apply,
    val_main_v13_apply, val_main_v12_apply, val_main_v11_apply, val_main_v10_apply, val_main_v9_apply, val_main_cst_apply,
    val_main_cst_0_apply, val_main_v19_apply, val_main_v18_apply, val_main_v17_apply, val_main_v16_apply, val_main_v15_apply,
    val_main_cst_1_apply, val_main_cst_2_apply, val_main_v5_apply, val_main_v6_apply, val_main_v7_apply, g5, g6, g7]
  simp only [Ideal.hostDivf_def, Ideal.addf_def, Ideal.mulf_def, Ideal.hostUnary_exp_def, Ideal.hostUnary_tanh_def,
    Ideal.hostNegf_def, Ideal.negf_def, Ideal.ofBits_def, sigmoid_eq]
  rfl

/-- The reference's new hidden state is the specification's. -/
theorem hnew_eq : val_main_v32 (F := Ideal) x0 x1 x2 x3 x4 = hNewArr x0 x1 x2 x3 (fun c => x4 (ix1 c)) := by
  funext i
  have g8 := gate_eq x0 x1 x3 x4 (idx_main_v8 i) 3072 (by norm_num) (rowIx i) (colIx i) rfl rfl
  rw [val_main_v32_apply, val_main_v31_apply, cnew_eq]
  simp only [val_main_v27_apply, val_main_v26_apply, val_main_v25_apply, val_main_v24_apply, val_main_v23_apply, val_main_v22_apply,
    val_main_cst_3_apply, val_main_cst_4_apply, val_main_v8_apply, g8]
  simp only [Ideal.hostDivf_def, Ideal.addf_def, Ideal.mulf_def, Ideal.hostUnary_exp_def, Ideal.hostUnary_tanh_def,
    Ideal.hostNegf_def, Ideal.negf_def, Ideal.ofBits_def, sigmoid_eq]
  rfl

/-- The reference's logits are the specification's: the new hidden row against a column of the read-out weights,
    plus the bias entry. -/
theorem logit_eq (i : S16384x1024.Idx) :
    val_main_v36 (F := Ideal) x0 x1 x2 x3 x4 x5 x6 i
      = logitAt (hNewArr x0 x1 x2 x3 (fun c => x4 (ix1 c))) x5 (fun c => x6 (ix1 c)) (rowIx i) (colIx i) := by
  rw [val_main_v36_apply, val_main_v33_apply, val_main_v35_apply, val_main_v34_apply, hnew_eq, Ideal.addf_def]
  unfold logitAt
  refine congrArg₂ (· + ·) (Finset.sum_congr rfl fun k _ => congrArg₂ (· * ·) (congrArg _ ?_) (congrArg x5 ?_)) (congrArg x6 ?_)
  · exact funext fun a => Fin.ext (by
      match a with
      | ⟨0, _⟩ => rfl
      | ⟨1, _⟩ => rfl)
  · exact funext fun a => Fin.ext (by
      match a with
      | ⟨0, _⟩ => rfl
      | ⟨1, _⟩ => rfl)
  · exact funext fun a => Fin.ext (by
      match a with
      | ⟨0, _⟩ => rfl)

/-- The reference's row maximum — a `max`-reduction over the columns from `-∞`, then one more `max` with `-∞` — at row
    `r` is the maximum of that row of logits. -/
theorem rowmax_eq (J : S16384.Idx) (r : Fin 16384) (hJ : (J 0).val = r.val) :
    val_main_call0_v2 (F := Ideal) x0 x1 x2 x3 x4 x5 x6 J
      = rowMax (fun j => val_main_v36 (F := Ideal) x0 x1 x2 x3 x4 x5 x6 (ix2 r j)) := by
  have hfold : val_main_call0_v0 (F := Ideal) x0 x1 x2 x3 x4 x5 x6 J
      = Finset.fold max (Ideal.ofBits .f32 0xFF800000#32) (fun k : Fin 1024 => val_main_v36 (F := Ideal) x0 x1 x2 x3 x4 x5 x6 (ix2 r k)) Finset.univ := by
    unfold val_main_call0_v0
    refine (Host.reduce_eq_fold_single FloatOps.maximumf _ _ reducesTo_S16384x1024_S16384_d1 (by decide) h_S_ J).trans ?_
    refine congrArg (fun f : Fin 1024 → EReal => Finset.fold max (Ideal.ofBits .f32 0xFF800000#32) f Finset.univ) (funext fun k => ?_)
    exact congrArg (val_main_v36 (F := Ideal) x0 x1 x2 x3 x4 x5 x6) (funext fun a => Fin.ext (by
      match a with
      | ⟨0, _⟩ => exact hJ
      | ⟨1, _⟩ => rfl))
  rw [val_main_call0_v2_apply, val_main_call0_v1_apply, val_main_call0_cst_0_apply, hfold]
  show max (Ideal.ofBits .f32 0xFF800000#32) _ = _
  rw [ofBits_neg_inf, max_bot_left]
  rfl

/-- The reference's read-out is the specification's: the log-softmax of each row of logits. -/
theorem out_eq : val_main_v37 (F := Ideal) x0 x1 x2 x3 x4 x5 x6
    = outArr x0 x1 x2 x3 (fun c => x4 (ix1 c)) x5 (fun c => x6 (ix1 c)) := by
  funext i
  obtain ⟨l, hl⟩ : ∃ l : Fin 1024 → EReal, l = fun j => val_main_v36 (F := Ideal) x0 x1 x2 x3 x4 x5 x6 (ix2 (rowIx i) j) := ⟨_, rfl⟩
  have hM : ∀ i' : S16384x1024.Idx, (i' 0).val = (i 0).val →
      val_main_call0_v4 (F := Ideal) x0 x1 x2 x3 x4 x5 x6 i' = rowMax l := fun i' h' => by
    rw [val_main_call0_v4_apply, val_main_call0_v3_apply, hl]
    exact rowmax_eq x0 x1 x2 x3 x4 x5 x6 _ (rowIx i) h'
  have h5 : ∀ i' : S16384x1024.Idx, (i' 0).val = (i 0).val →
      val_main_call0_v5 (F := Ideal) x0 x1 x2 x3 x4 x5 x6 i' = val_main_v36 (F := Ideal) x0 x1 x2 x3 x4 x5 x6 i' - rowMax l := fun i' h' => by
    rw [val_main_call0_v5_apply, hM i' h']; rfl
  have hsum : ∀ k : Fin 1024,
      val_main_call0_v6 (F := Ideal) x0 x1 x2 x3 x4 x5 x6 (idx_main_call0_v7 (idx_main_call0_v8 (idx_main_call0_v10 i)) k)
        = Ideal.exp (l k - rowMax l) := fun k => by
    rw [val_main_call0_v6_apply, h5 (idx_main_call0_v7 (idx_main_call0_v8 (idx_main_call0_v10 i)) k) rfl, hl]
    exact congrArg (fun t => Ideal.exp (t - _)) (congrArg (val_main_v36 (F := Ideal) x0 x1 x2 x3 x4 x5 x6) (funext fun a => Fin.ext (by
      match a with
      | ⟨0, _⟩ => rfl
      | ⟨1, _⟩ => rfl)))
  have hi : val_main_v36 (F := Ideal) x0 x1 x2 x3 x4 x5 x6 i = l (colIx i) := by
    rw [hl]
    exact congrArg (val_main_v36 (F := Ideal) x0 x1 x2 x3 x4 x5 x6) (funext fun a => Fin.ext (by
      match a with
      | ⟨0, _⟩ => rfl
      | ⟨1, _⟩ => rfl))
  have hspec : l = fun j => logitAt (hNewArr x0 x1 x2 x3 (fun c => x4 (ix1 c))) x5 (fun c => x6 (ix1 c)) (rowIx i) j := by
    rw [hl]; funext j; exact logit_eq x0 x1 x2 x3 x4 x5 x6 (ix2 (rowIx i) j)
  rw [val_main_v37_apply, val_main_call0_v10_apply, val_main_call0_v9_apply, val_main_call0_v8_apply, val_main_call0_v7_apply,
    val_main_call0_cst_1_apply, h5 i rfl, hi, Finset.sum_congr rfl fun k _ => hsum k]
  show (l (colIx i) - rowMax l) - Ideal.log (Ideal.ofBits .f32 0x00000000#32 + ∑ k : Fin 1024, Ideal.exp (l k - rowMax l)) = _
  rw [Ideal.ofBits_zero_f32, zero_add, hspec]
  rfl

end Cert.ReferenceIdeal.RefValue

end
-- ==== Proof.lean ====
/-
  The fused LSTM-step kernel against its jnp reference, at the exact (extended-real) values.

  Both programs take `x`, `h`, `c` (16384 × 1024), gate weights `Wg` (2048 × 4096), gate bias `bg`, read-out weights
  `Wout` (1024 × 1024) and read-out bias `bout`, and return the log-softmax read-out, the new hidden state and the new
  cell state of one LSTM step (Proof/Spec.lean states the three arrays index by index).

  The kernel works on 64 blocks of 256 batch rows. For each gate it multiplies the block of `x` with the upper half of
  the gate's weight columns and the block of `h` with the lower half, and adds the two products and the bias; the
  reference joins `x` and `h` side by side and multiplies once with the whole weight matrix. The two agree because a
  sum over 2048 terms is the sum of its first 1024 plus the sum of its last 1024 — associativity and commutativity of
  addition on the extended reals, which hold at the infinities too, so the finiteness of the inputs is never used.
  Everything else is the same operation on both sides: the kernel's logistic operation is `1 / (1 + e^(−t))`, which is
  how the reference spells it; the changes of float format on the weights are the identity on exact values; a row
  maximum is a fold of `max` from `-∞` and a row sum a finite sum, whatever unit computes them.

  The kernel's result arrays are read off its frame run block by block (Proof/KernelBody.lean: the body at a block
  index; Proof/KernelBlock.lean: a block against the arrays; Proof/KernelArrays.lean: the 64 blocks cover the arrays),
  the reference's off its run, one operation at a time (Proof/RefValue.lean). The idealization rewrote no operation, so
  there is nothing to preserve beyond the program's own text.
-/
import proofs.«128809_j22677427323268_2_alg».proof.Defs
import proofs.«128809_j22677427323268_2_alg».proof.Proof.Gen.Kernel
import proofs.«128809_j22677427323268_2_alg».proof.Proof.Gen.Kernel.Skeleton
import proofs.«128809_j22677427323268_2_alg».proof.Proof.Gen.Kernel.Launch
import proofs.«128809_j22677427323268_2_alg».proof.Proof.Gen.Kernel.Points
import proofs.«128809_j22677427323268_2_alg».proof.Proof.Gen.Kernel.Frame
import proofs.«128809_j22677427323268_2_alg».proof.Proof.Gen.KernelIdeal
import proofs.«128809_j22677427323268_2_alg».proof.Proof.Gen.KernelIdeal.Skeleton
import proofs.«128809_j22677427323268_2_alg».proof.Proof.Gen.KernelIdeal.Launch
import proofs.«128809_j22677427323268_2_alg».proof.Proof.Gen.KernelIdeal.Points
import proofs.«128809_j22677427323268_2_alg».proof.Proof.Gen.KernelIdeal.Frame
import proofs.«128809_j22677427323268_2_alg».proof.Proof.Gen.KernelIdeal.Value
import proofs.«128809_j22677427323268_2_alg».proof.Proof.Gen.ReferenceIdeal
import proofs.«128809_j22677427323268_2_alg».proof.Proof.Gen.Pre_finite_inputs
import proofs.«128809_j22677427323268_2_alg».proof.Proof.KernelArrays
import proofs.«128809_j22677427323268_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.LstmStep

/-- The word-level kernel runs, faults nowhere and leaves its arguments as they were. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- And the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the seven arguments both programs end with the specification's three arrays of those
    arguments: the read-out, the new hidden state and the new cell state. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6⟩ := hagree c
    rw [Cert.ReferenceIdeal.Read.val_main_v37_eq, Cert.ReferenceIdeal.RefValue.out_eq, a0, a1, a2, a3, a4, a5, a6]
  · obtain ⟨a0, a1, a2, a3, a4, -, -⟩ := hagree c
    refine (Cert.ReferenceIdeal.Read.val_main_v32_eq _ _ _ _ _).trans ?_
    rw [Cert.ReferenceIdeal.RefValue.hnew_eq, a0, a1, a2, a3, a4]
  · obtain ⟨a0, a1, a2, a3, a4, -, -⟩ := hagree c
    refine (Cert.ReferenceIdeal.Read.val_main_v30_eq _ _ _ _ _).trans ?_
    rw [Cert.ReferenceIdeal.RefValue.cnew_eq, a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
